-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x16x1 : Shape := ⟨4, ![4, 2048, 16, 1]⟩
abbrev S4x2048x16x256 : Shape := ⟨4, ![4, 2048, 16, 256]⟩
abbrev S256x64 : Shape := ⟨2, ![256, 64]⟩
abbrev S_ : Shape := ⟨0, ![]⟩

class Facts : Prop where
  bcast_S_S4x2048x16x1 : S_.BroadcastsInDim S4x2048x16x1 (![] : Fin 0 → Fin S4x2048x16x1.rank)
  reducesTo_S4x2048x16x1_S_d0_1_2_3 : S4x2048x16x1.ReducesTo [0, 1, 2, 3] S_
  h_S_ : 0 < S_.numel
  bcast_S_S4x2048x16x256 : S_.BroadcastsInDim S4x2048x16x256 (![] : Fin 0 → Fin S4x2048x16x256.rank)
  reducesTo_S4x2048x16x256_S_d0_1_2_3 : S4x2048x16x256.ReducesTo [0, 1, 2, 3] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  main_v23

def fn {F : FTy → Type} [FloatOps F] (main_arg0 : FVec F S4x2048x16x1 .f32) (main_arg1 : FVec F S4x2048x16x256 .f32) (main_arg2 : FVec F S4x2048x16x256 .f32) (main_arg3 : FVec F S256x64 .f32) (main_arg4 : FVec F S256x64 .f32) : IVec S_ 1 :=
  let main_v0 : FVec F S4x2048x16x1 .f32 := Host.absf main_arg0
  let main_cst : FVec F S_ .f32 := constant S_ .f32 0x7F800000#32
  let main_v1 : FVec F S4x2048x16x1 .f32 := broadcastInDim S4x2048x16x1 ![] bcast_S_S4x2048x16x1 main_cst
  let main_v2 : IVec S4x2048x16x1 1 := cmpf .olt main_v0 main_v1
  let main_c : IVec S_ 1 := constantI S_ 1 1#1
  let main_v3 : IVec S_ 1 := (fun x v => Host.reduce IntOp.andi x v reducesTo_S4x2048x16x1_S_d0_1_2_3 h_S_) main_v2 main_c
  let main_v4 : FVec F S4x2048x16x256 .f32 := Host.absf main_arg1
  let main_cst_0 : FVec F S_ .f32 := constant S_ .f32 0x7F800000#32
  let main_v5 : FVec F S4x2048x16x256 .f32 := broadcastInDim S4x2048x16x256 ![] bcast_S_S4x2048x16x256 main_cst_0
  let main_v6 : IVec S4x2048x16x256 1 := cmpf .olt main_v4 main_v5
  let main_c_1 : IVec S_ 1 := constantI S_ 1 1#1
  let main_v7 : IVec S_ 1 := (fun x v => Host.reduce IntOp.andi x v reducesTo_S4x2048x16x256_S_d0_1_2_3 h_S_) main_v6 main_c_1
  let main_v8 : IVec S_ 1 := andi main_v3 main_v7
  let main_v9 : FVec F S4x2048x16x256 .f32 := Host.absf main_arg2
  let main_cst_2 : FVec F S_ .f32 := constant S_ .f32 0x7F800000#32
  let main_v10 : FVec F S4x2048x16x256 .f32 := broadcastInDim S4x2048x16x256 ![] bcast_S_S4x2048x16x256 main_cst_2
  let main_v11 : IVec S4x2048x16x256 1 := cmpf .olt main_v9 main_v10
  let main_c_3 : IVec S_ 1 := constantI S_ 1 1#1
  let main_v12 : IVec S_ 1 := (fun x v => Host.reduce IntOp.andi x v reducesTo_S4x2048x16x256_S_d0_1_2_3 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S4x2048x16x1 : Shape := ⟨4, ![4, 2048, 16, 1]⟩
abbrev S4x2048x16x256 : Shape := ⟨4, ![4, 2048, 16, 256]⟩
abbrev S256x64 : Shape := ⟨2, ![256, 64]⟩
abbrev S131072x256 : Shape := ⟨2, ![131072, 256]⟩
abbrev S8192x16 : Shape := ⟨2, ![8192, 16]⟩
abbrev S4096x256 : Shape := ⟨2, ![4096, 256]⟩
abbrev S256x16 : Shape := ⟨2, ![256, 16]⟩
abbrev S4096x64 : Shape := ⟨2, ![4096, 64]⟩
abbrev S256x16x64 : Shape := ⟨3, ![256, 16, 64]⟩
abbrev S256x1x64 : Shape := ⟨3, ![256, 1, 64]⟩
abbrev S256x16x1 : Shape := ⟨3, ![256, 16, 1]⟩
abbrev S256x16x16 : Shape := ⟨3, ![256, 16, 16]⟩
abbrev S256x1x16 : Shape := ⟨3, ![256, 1, 16]⟩
abbrev S256 : Shape := ⟨1, ![256]⟩
abbrev S256x1 : Shape := ⟨2, ![256, 1]⟩
abbrev S4x2048x16 : Shape := ⟨3, ![4, 2048, 16]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x16x1, .f32⟩
  | .hbm, ⟨1, _⟩ => ⟨S4x2048x16x256, .f32⟩
  | .hbm, ⟨2, _⟩ => ⟨S4x2048x16x256, .f32⟩
  | .hbm, ⟨3, _⟩ => ⟨S256x64, .f32⟩
  | .hbm, ⟨4, _⟩ => ⟨S256x64, .f32⟩
  | .hbm, ⟨5, _⟩ => ⟨S131072x256, .f32⟩
  | .hbm, ⟨6, _⟩ => ⟨S131072x256, .f32⟩
  | .hbm, ⟨7, _⟩ => ⟨S8192x16, .f32⟩
  | .hbm, ⟨8, _⟩ => ⟨S8192x16, .f32⟩
  | .hbm, ⟨9, _⟩ => ⟨S4x2048x16, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x16, .f32⟩
  | .local _ .vmem, ⟨5, _⟩ => ⟨S256x16, .f32⟩
  | .local _ .vmem, ⟨6, _⟩ => ⟨S256x64, .f32⟩
  | .local _ .vmem, ⟨7, _⟩ => ⟨S256x64, .f32⟩
  | .local _ .vmem, ⟨8, _⟩ => ⟨S256x16, .f32⟩
  | .local _ .vmem, ⟨9, _⟩ => ⟨S256x16, .f32⟩
  | _, _ => ⟨S4x2048x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x16x256_S131072x256 : S4x2048x16x256.ShapeCasts S131072x256
  shapeCasts_S4x2048x16x1_S8192x16 : S4x2048x16x1.ShapeCasts S8192x16
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S4096x64_S256x16x64 : S4096x64.ShapeCasts S256x16x64
  slices_S256x16x64_o0_0_0_S256x1x64 : S256x16x64.Slices ![0, 0, 0] S256x1x64
  broadcasts_S256x1x64_S256x16x64 : S256x1x64.Broadcasts S256x16x64
  reduces_S256x16x64_S256x16 : S256x16x64.Reduces [2] S256x16
  slices_S256x16x64_o0_1_0_S256x1x64 : S256x16x64.Slices ![0, 1, 0] S256x1x64
  slices_S256x16x64_o0_2_0_S256x1x64 : S256x16x64.Slices ![0, 2, 0] S256x1x64
  slices_S256x16x64_o0_3_0_S256x1x64 : S256x16x64.Slices ![0, 3, 0] S256x1x64
  slices_S256x16x64_o0_4_0_S256x1x64 : S256x16x64.Slices ![0, 4, 0] S256x1x64
  slices_S256x16x64_o0_5_0_S256x1x64 : S256x16x64.Slices ![0, 5, 0] S256x1x64
  slices_S256x16x64_o0_6_0_S256x1x64 : S256x16x64.Slices ![0, 6, 0] S256x1x64
  slices_S256x16x64_o0_7_0_S256x1x64 : S256x16x64.Slices ![0, 7, 0] S256x1x64
  slices_S256x16x64_o0_8_0_S256x1x64 : S256x16x64.Slices ![0, 8, 0] S256x1x64
  slices_S256x16x64_o0_9_0_S256x1x64 : S256x16x64.Slices ![0, 9, 0] S256x1x64
  slices_S256x16x64_o0_10_0_S256x1x64 : S256x16x64.Slices ![0, 10, 0] S256x1x64
  slices_S256x16x64_o0_11_0_S256x1x64 : S256x16x64.Slices ![0, 11, 0] S256x1x64
  slices_S256x16x64_o0_12_0_S256x1x64 : S256x16x64.Slices ![0, 12, 0] S256x1x64
  slices_S256x16x64_o0_13_0_S256x1x64 : S256x16x64.Slices ![0, 13, 0] S256x1x64
  slices_S256x16x64_o0_14_0_S256x1x64 : S256x16x64.Slices ![0, 14, 0] S256x1x64
  slices_S256x16x64_o0_15_0_S256x1x64 : S256x16x64.Slices ![0, 15, 0] S256x1x64
  shapeCasts_S256x16_S256x16x1 : S256x16.ShapeCasts S256x16x1
  concatenates_S256x16x1_S256x16x1_S256x16x1_S256x16x1_S256x16x1_S256x16x1_S256x16x1_S256x16x1_S256x16x1_S256x16x1_S256x16x1_S256x16x1_S256x16x1_S256x16x1_S256x16x1_S256x16x1_S256x16x16_d2 : Shape.Concatenates [S256x16x1, S256x16x1, S256x16x1, S256x16x1, S256x16x1, S256x16x1, S256x16x1, S256x16x1, S256x16x1, S256x16x1, S256x16x1, S256x16x1, S256x16x1, S256x16x1, S256x16x1, S256x16x1] S256x16x16 2
  reduces_S256x16x16_S256x16 : S256x16x16.Reduces [2] S256x16
  broadcasts_S256x16x1_S256x16x16 : S256x16x1.Broadcasts S256x16x16
  inb_S256x16_S256x16_0_0 : ∀ a, (![0, 0] : Fin 2 → Nat) a + S256x16.size a ≤ S256x16.size a
  h_S256x16 : 0 < S256x16.numel
  shapeCasts_S256x16_S256x16 : S256x16.ShapeCasts S256x16
  shapeCasts_S256x16_S256x1x16 : S256x16.ShapeCasts S256x1x16
  broadcasts_S256x1x16_S256x16x16 : S256x1x16.Broadcasts S256x16x16
  reduces_S256x16_S256 : S256x16.Reduces [1] S256
  shapeCasts_S256_S256x1 : S256.ShapeCasts S256x1
  broadcasts_S256x1_S256x16 : S256x1.Broadcasts S256x16
  shapeCasts_S8192x16_S4x2048x16 : S8192x16.ShapeCasts S4x2048x16
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S8192x16.size a
  hwx0_2 : ∀ i : grid0.Coords, EltTy.bits .f32 = 32 ∨ (Rect.block (s := S8192x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S8192x16.size a
  hwx0_5 : ∀ i : grid0.Coords, EltTy.bits .f32 = 32 ∨ (Rect.block (s := S8192x16) S256x16.size (cc0_transform_5 i) (hinb0_5 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x16x1 : Shape := ⟨4, ![4, 2048, 16, 1]⟩
abbrev S4x2048x16x256 : Shape := ⟨4, ![4, 2048, 16, 256]⟩
abbrev S256x64 : Shape := ⟨2, ![256, 64]⟩
abbrev S4x2048x16x64 : Shape := ⟨4, ![4, 2048, 16, 64]⟩
abbrev S4x2048x16x16 : Shape := ⟨4, ![4, 2048, 16, 16]⟩
abbrev S_ : Shape := ⟨0, ![]⟩
abbrev S4x2048x16 : Shape := ⟨3, ![4, 2048, 16]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x16x1, .f32⟩
  | .hbm, ⟨1, _⟩ => ⟨S4x2048x16x256, .f32⟩
  | .hbm, ⟨2, _⟩ => ⟨S4x2048x16x256, .f32⟩
  | .hbm, ⟨3, _⟩ => ⟨S256x64, .f32⟩
  | .hbm, ⟨4, _⟩ => ⟨S256x64, .f32⟩
  | .hbm, ⟨5, _⟩ => ⟨S4x2048x16x64, .f32⟩
  | .hbm, ⟨6, _⟩ => ⟨S4x2048x16x64, .f32⟩
  | .hbm, ⟨7, _⟩ => ⟨S4x2048x16x16, .f32⟩
  | .hbm, ⟨8, _⟩ => ⟨S_, .f32⟩
  | .hbm, ⟨9, _⟩ => ⟨S_, .f32⟩
  | .hbm, ⟨10, _⟩ => ⟨S4x2048x16x16, .f32⟩
  | .hbm, ⟨11, _⟩ => ⟨S4x2048x16x16, .f32⟩
  | .hbm, ⟨12, _⟩ => ⟨S_, .f32⟩
  | .hbm, ⟨13, _⟩ => ⟨S4x2048x16, .f32⟩
  | .hbm, ⟨14, _⟩ => ⟨S_, .f32⟩
  | .hbm, ⟨15, _⟩ => ⟨S4x2048x16, .f32⟩
  | .hbm, ⟨16, _⟩ => ⟨S4x2048x16, .f32⟩
  | .hbm, ⟨17, _⟩ => ⟨S4x2048x16x1, .f32⟩
  | .hbm, ⟨18, _⟩ => ⟨S4x2048x16x16, .f32⟩
  | .hbm, ⟨19, _⟩ => ⟨S4x2048x16x16, .f32⟩
  | .hbm, ⟨20, _⟩ => ⟨S4x2048x16x16, .f32⟩
  | .hbm, ⟨21, _⟩ => ⟨S_, .f32⟩
  | .hbm, ⟨22, _⟩ => ⟨S4x2048x16, .f32⟩
  | .hbm, ⟨23, _⟩ => ⟨S4x2048x16x1, .f32⟩
  | .hbm, ⟨24, _⟩ => ⟨S4x2048x16x16, .f32⟩
  | .hbm, ⟨25, _⟩ => ⟨S4x2048x16x16, .f32⟩
  | .hbm, ⟨26, _⟩ => ⟨S4x2048x16x1, .f32⟩
  | .hbm, ⟨27, _⟩ => ⟨S4x2048x16, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x16, .f32⟩
  | .hbm, ⟨35, _⟩ => ⟨S4x2048x16, .f32⟩
  | .hbm, ⟨36, _⟩ => ⟨S4x2048x16, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x16, .f32⟩
  | .hbm, ⟨41, _⟩ => ⟨S4x2048x16, .f32⟩
  | _, _ => ⟨S4x2048x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S4x2048x16x16 : S_.BroadcastsInDim S4x2048x16x16 (![] : Fin 0 → Fin S4x2048x16x16.rank)
  reducesTo_S4x2048x16x16_S4x2048x16_d3 : S4x2048x16x16.ReducesTo [3] S4x2048x16
  h_S_ : 0 < S_.numel
  bcast_S_S4x2048x16 : S_.BroadcastsInDim S4x2048x16 (![] : Fin 0 → Fin S4x2048x16.rank)
  bcast_S4x2048x16_S4x2048x16x1_0_1_2 : S4x2048x16.BroadcastsInDim S4x2048x16x1 (![0, 1, 2] : Fin 3 → Fin S4x2048x16x1.rank)
  bcast_S4x2048x16x1_S4x2048x16x16_0_1_2_3 : S4x2048x16x1.BroadcastsInDim S4x2048x16x16 (![0, 1, 2, 3] : Fin 4 → Fin S4x2048x16x16.rank)
  shapeCasts_S4x2048x16x1_S4x2048x16 : S4x2048x16x1.ShapeCasts S4x2048x16
  reducesTo_S4x2048x16_S4x2048_d2 : S4x2048x16.ReducesTo [2] S4x2048
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x16_0_1_2 : S4x2048x1.BroadcastsInDim S4x2048x16 (![0, 1, 2] : Fin 3 → Fin S4x2048x16.rank)
  dot_S4x2048x16x256_S256x64_S4x2048x16x64_3_0_012_1_n_n_wf : DotDims.WF S4x2048x16x256 S256x64 S4x2048x16x64 [3] [0] [0, 1, 2] [1] [] []
  dot_S4x2048x16x64_S4x2048x16x64_S4x2048x16x16_3_3_2_2_01_01_wf : DotDims.WF S4x2048x16x64 S4x2048x16x64 S4x2048x16x16 [3] [3] [2] [2] [0, 1] [0, 1]
  dot_S4x2048x16x16_S4x2048x16x1_S4x2048x16x1_3_2_2_3_01_01_wf : DotDims.WF S4x2048x16x16 S4x2048x16x1 S4x2048x16x1 [3] [2] [2] [3] [0, 1] [0, 1]

variable [Facts₀]

def dot_S4x2048x16x256_S256x64_S4x2048x16x64_3_0_012_1_n_n : DotDims S4x2048x16x256 S256x64 S4x2048x16x64 where
  lhsContracting := [3]
  rhsContracting := [0]
  lhsNonContracting := [0, 1, 2]
  rhsNonContracting := [1]
  lhsBatch := []
  rhsBatch := []
  wf := dot_S4x2048x16x256_S256x64_S4x2048x16x64_3_0_012_1_n_n_wf
def dot_S4x2048x16x64_S4x2048x16x64_S4x2048x16x16_3_3_2_2_01_01 : DotDims S4x2048x16x64 S4x2048x16x64 S4x2048x16x16 where
  lhsContracting := [3]
  rhsContracting := [3]
  lhsNonContracting := [2]
  rhsNonContracting := [2]
  lhsBatch := [0, 1]
  rhsBatch := [0, 1]
  wf := dot_S4x2048x16x64_S4x2048x16x64_S4x2048x16x16_3_3_2_2_01_01_wf
def dot_S4x2048x16x16_S4x2048x16x1_S4x2048x16x1_3_2_2_3_01_01 : DotDims S4x2048x16x16 S4x2048x16x1 S4x2048x16x1 where
  lhsContracting := [3]
  rhsContracting := [2]
  lhsNonContracting := [2]
  rhsNonContracting := [3]
  lhsBatch := [0, 1]
  rhsBatch := [0, 1]
  wf := dot_S4x2048x16x16_S4x2048x16x1_S4x2048x16x1_3_2_2_3_01_01_wf

class Facts : Prop extends Facts₀ where

variable [Facts]
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«123269_j82197084111013_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«123269_j82197084111013_2_alg».proof.Proof.LibInnerProducts
import proofs.«123269_j82197084111013_2_alg».proof.Proof.LibInDimRow
import proofs.«123269_j82197084111013_2_alg».proof.Proof.LibKeepdims
import proofs.«123269_j82197084111013_2_alg».proof.Proof.LibInDimLayout
import proofs.«123269_j82197084111013_2_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.RouterSpec.lean ====
/-
  The routing weights of one token, and the one arithmetic law of this certificate.

  A token carries sixteen expert slots.  Slot e has a query row q e and a key row k e of length 256 and a gate
  value g e.  Both rows are projected to 64 coordinates by the weight matrices wq and wk; the similarity of query
  slot e with key slot j is the inner product of the two projections, scaled; a softmax over j turns row e of the
  similarities into weights, the gate values are averaged with these weights, and a second softmax over e gives the
  routing weights.

  One program scales a similarity by multiplying with 1/8, the other by dividing by the square root of 64.  The
  square root of 64 is 8, and on the extended reals a quotient by a nonzero real is the product with its
  reciprocal at the infinities too, so the two scalings are one function; nothing else differs.
-/
import Mathlib.Tactic
import Idealize.ShloMosaic.PureOps.Ideal
import Idealize.ShloMosaic.PureOps.Ideal.Laws
import proofs.«123269_j82197084111013_2_alg».proof.Proof.LibDenseRows

noncomputable section

namespace Cert.Router

open Idealize.ShloMosaic Cert.DenseRows
open scoped BigOperators

/-- The projection of a row of length 256 to coordinate a: the inner product with column a of the weights. -/
def proj (x : Fin 256 → EReal) (w : Fin 256 → Fin 64 → EReal) (a : Fin 64) : EReal :=
  ∑ d : Fin 256, x d * w d a

/-- The similarity of query slot e with key slot j before scaling: the inner product of the two projections. -/
def sim (q k : Fin 16 → Fin 256 → EReal) (wq wk : Fin 256 → Fin 64 → EReal) (e j : Fin 16) : EReal :=
  ∑ a : Fin 64, proj (q e) wq a * proj (k j) wk a

/-- The gate value of slot e: the gates averaged with the softmax of row e of the scaled similarities. -/
def gated (sc : EReal → EReal) (q k : Fin 16 → Fin 256 → EReal) (g : Fin 16 → EReal)
    (wq wk : Fin 256 → Fin 64 → EReal) (e : Fin 16) : EReal :=
  ∑ j : Fin 16, softmax (fun j' => sc (sim q k wq wk e j')) j * g j

/-- The routing weights of one token: the softmax over the slots of the gated values. -/
def route (sc : EReal → EReal) (q k : Fin 16 → Fin 256 → EReal) (g : Fin 16 → EReal)
    (wq wk : Fin 256 → Fin 64 → EReal) : Fin 16 → EReal :=
  softmax (gated sc q k g wq wk)

/-- Scaling by the product with the float word of 1/8. -/
def scaleMul (x : EReal) : EReal := x * Ideal.ofBits .f32 0x3E000000#32

/-- Scaling by the quotient by the square root of the float word of 64. -/
def scaleDiv (x : EReal) : EReal := Ideal.div x (Ideal.sqrt (Ideal.ofBits .f32 0x42800000#32))

/-- The word 0x3E000000 denotes 1/8: exponent field 124, significand 0. -/
theorem word_eighth : Ideal.ofBits .f32 0x3E000000#32 = ((1 / 8 : ℝ) : EReal) := by
  simp [Ideal.ofBits, Ideal.ieee, -EReal.coe_mul] <;> norm_num

/-- The word 0x42800000 denotes 64: exponent field 133, significand 0. -/
theorem word_sixtyfour : Ideal.ofBits .f32 0x42800000#32 = ((64 : ℝ) : EReal) := by
  simp [Ideal.ofBits, Ideal.ieee, -EReal.coe_mul] <;> norm_num

/-- The square root of 64 is 8. -/
theorem sqrt_sixtyfour : Ideal.sqrt ((64 : ℝ) : EReal) = ((8 : ℝ) : EReal) := by
  have h : Real.sqrt 64 = 8 := by
    rw [show (64 : ℝ) = 8 ^ 2 by norm_num]
    exact Real.sqrt_sq (by norm_num)
  show (if (64 : ℝ) < 0 then (⊥ : EReal) else ((Real.sqrt 64 : ℝ) : EReal)) = _
  rw [if_neg (by norm_num), h]

/-- The two scalings are one function on the extended reals. -/
theorem scaleMul_eq_scaleDiv : scaleMul = scaleDiv := by
  funext x
  unfold scaleMul scaleDiv
  rw [word_eighth, word_sixtyfour, sqrt_sixtyfour, Ideal.div_coe (by norm_num : (8 : ℝ) ≠ 0) x]

end Cert.Router

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.LibMiddleSlice.lean ====
/-
  One slice along the middle axis of a rank-three array, read at an index given by coordinates.

  The slice of an [a, n, c] array that keeps every first and last coordinate and the single middle coordinate o is
  an [a, 1, c] array; at (p, u, r) it reads the array at (p, k, r) for the middle coordinate k = o, whatever the
  unit coordinate u.  It is the general statement of a slice at an index with the two indices written out.
-/
import Idealize.ShloMosaic.Lib.Pipeline.Value
import Idealize.ShloMosaic.Lib.ValueIdx

namespace Idealize.ShloMosaic.MiddleSlice

open Idealize.ShloMosaic Idealize.ShloMosaic.ValueIdx

variable {α : Type}

/-- The unit-thick slice of an [a, n, c] array at offsets (0, o, 0) reads, at (p, u, r), the array at (p, k, r)
    with k = o. -/
theorem slice_middle_apply {a n c : ℕ} (o : ℕ) (x : (⟨3, ![a, n, c]⟩ : Shape).Idx → α)
    (h : (⟨3, ![a, n, c]⟩ : Shape).Slices ![0, o, 0] ⟨3, ![a, 1, c]⟩) (p : Fin a) (u : Fin 1) (r : Fin c)
    (k : Fin n) (hk : k.val = o) :
    extractStridedSlice ⟨3, ![a, 1, c]⟩ ![0, o, 0] x h (ix3 p u r) = x (ix3 p k r) := by
  refine extractStridedSlice_apply ![0, o, 0] x h (ix3 p u r) (ix3 p k r) fun ax => ?_
  have hu : u.val = 0 := by omega
  match ax with
  | ⟨0, _⟩ => show p.val = 0 + p.val; omega
  | ⟨1, _⟩ => show k.val = o + u.val; omega
  | ⟨2, _⟩ => show r.val = 0 + r.val; omega

end Idealize.ShloMosaic.MiddleSlice
-- ==== Proof.BodySimilarity.lean ====
/-
  The similarity block of one grid point, read at an index.

  A grid point holds 256 tokens.  Its query block and key block have one row per (token, slot) pair, row
  r * 16 + e for token r and slot e.  Projecting each row by the weights and regrouping the rows gives arrays
  indexed (token, slot, coordinate).  For each key slot j the body takes the key projections of slot j, spreads
  them over the query slots, multiplies with the query projections and sums over the 64 coordinates: a
  [256, 16] array of inner products.  The sixteen arrays are joined along a new last axis.  So entry (r, e, j) of
  the joined block is the inner product of the projections of query slot e and key slot j of token r.
-/
import proofs.«123269_j82197084111013_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«123269_j82197084111013_2_alg».proof.Proof.RouterSpec
import proofs.«123269_j82197084111013_2_alg».proof.Proof.LibRowPairs
import proofs.«123269_j82197084111013_2_alg».proof.Proof.LibInnerProducts
import proofs.«123269_j82197084111013_2_alg».proof.Proof.LibUnitAxisLayout
import proofs.«123269_j82197084111013_2_alg».proof.Proof.LibRank3Layout
import proofs.«123269_j82197084111013_2_alg».proof.Proof.LibMiddleSlice

set_option maxRecDepth 16384

noncomputable section

namespace Cert.Router.Body

open Idealize.ShloMosaic Idealize.ShloMosaic.ValueIdx Cert.KernelIdeal Cert.KernelIdeal.Gen Cert.Router
open scoped BigOperators

/-- The row of the (token, slot) pair (r, e) in a block of 256 tokens. -/
def slotRow (r : Fin 256) (e : Fin 16) : Fin 4096 := ⟨r.val * 16 + e.val, by have := r.isLt; have := e.isLt; omega⟩

/-- A block of rows projected by a weight matrix and regrouped by (token, slot): at (r, e, a) the projection of
    row r * 16 + e to coordinate a.  The change of float format before the product is the identity. -/
theorem projected_apply (x : Vec Ideal S4096x256 .f32) (w : Vec Ideal S256x64 .f32)
    (h0 : S4096x256.ShapeCasts S4096x256) (hb : FTy.bf16.bits < FTy.f32.bits)
    (D : DotDims S4096x256 S256x64 S4096x64) (hD : D = DotDims.plain 4096 256 64)
    (hc : S4096x64.ShapeCasts S256x16x64) (r : Fin 256) (e : Fin 16) (a : Fin 64) :
    shapeCast S256x16x64 (matmul D none (truncf .bf16 (shapeCast S4096x256 x h0) hb) (truncf .bf16 w hb)
        (constant (F := Ideal) S4096x64 .f32 0x00000000#32)) hc (ix3 r e a)
      = proj (fun d => x (ix2 (slotRow r e) d)) (fun d a' => w (ix2 d a')) a := by
  refine (RowPairs.shapeCast_nc_abc_apply _ hc r e a (slotRow r e) rfl).trans ?_
  refine (InnerProducts.matmul_zero_apply D hD none _ _ (slotRow r e) a).trans ?_
  unfold proj
  refine Finset.sum_congr rfl fun d _ => ?_
  show shapeCast S4096x256 x h0 (ix2 (slotRow r e) d) * w (ix2 d a) = _
  rw [shapeCast_self]

/-- The query projections of the body. -/
theorem query_apply (x0 : Vec Ideal S4096x256 .f32) (x3 : Vec Ideal S256x64 .f32) (r : Fin 256) (e : Fin 16) (a : Fin 64) :
    k0_pay3 x0 x3 (ix3 r e a) = proj (fun d => x0 (ix2 (slotRow r e) d)) (fun d a' => x3 (ix2 d a')) a :=
  projected_apply x0 x3 _ _ _ rfl _ r e a

/-- The key projections of the body. -/
theorem key_apply (x1 : Vec Ideal S4096x256 .f32) (x4 : Vec Ideal S256x64 .f32) (r : Fin 256) (e : Fin 16) (a : Fin 64) :
    k0_pay4 x1 x4 (ix3 r e a) = proj (fun d => x1 (ix2 (slotRow r e) d)) (fun d a' => x4 (ix2 d a')) a :=
  projected_apply x1 x4 _ _ _ rfl _ r e a

/-- One key slot against all query slots: the keys of slot k (offset o = k on the slot axis) spread over the query
    slots, multiplied with the queries and summed over the coordinates. -/
theorem slotColumn_apply (Q K : FVec Ideal S256x16x64 .f32) (o : ℕ)
    (hs : S256x16x64.Slices ![0, o, 0] S256x1x64) (hb : S256x1x64.Broadcasts S256x16x64)
    (hr : S256x16x64.Reduces [2] S256x16) (r : Fin 256) (e : Fin 16) (k : Fin 16) (hk : k.val = o) :
    multiReduction .add [2] S256x16 (mulf Q (broadcastTo S256x16x64 (extractStridedSlice S256x1x64 ![0, o, 0] K hs) hb))
        0x00000000#32 hr (.inl rfl) rfl (ix2 r e)
      = ∑ a : Fin 64, Q (ix3 r e a) * K (ix3 r k a) := by
  refine (InnerProducts.lane_sum_apply _ _ hr (.inl rfl) rfl r e).trans ?_
  refine Finset.sum_congr rfl fun a _ => ?_
  show Q (ix3 r e a) * broadcastTo S256x16x64 _ hb (ix3 r e a) = _
  rw [UnitAxisLayout.broadcastTo_a1c_abc_apply _ hb r e a, MiddleSlice.slice_middle_apply o K hs r 0 a k hk]

/-- Sixteen [256, 16, 1] pieces joined along the last axis: entry (r, e, j) is piece j at (r, e, 0). -/
theorem joined_apply {α : Type} (p0 p1 p2 p3 p4 p5 p6 p7 p8 p9 p10 p11 p12 p13 p14 p15 : S256x16x1.Idx → α)
    (h : Shape.Concatenates (([⟨S256x16x1, p0⟩, ⟨S256x16x1, p1⟩, ⟨S256x16x1, p2⟩, ⟨S256x16x1, p3⟩, ⟨S256x16x1, p4⟩, ⟨S256x16x1, p5⟩, ⟨S256x16x1, p6⟩, ⟨S256x16x1, p7⟩, ⟨S256x16x1, p8⟩, ⟨S256x16x1, p9⟩, ⟨S256x16x1, p10⟩, ⟨S256x16x1, p11⟩, ⟨S256x16x1, p12⟩, ⟨S256x16x1, p13⟩, ⟨S256x16x1, p14⟩, ⟨S256x16x1, p15⟩] : List ((s : Shape) × (s.Idx → α))).map (·.1)) S256x16x16 2)
    (r : Fin 256) (e : Fin 16) (j : Fin 16) :
    concatenate S256x16x16 2 [⟨S256x16x1, p0⟩, ⟨S256x16x1, p1⟩, ⟨S256x16x1, p2⟩, ⟨S256x16x1, p3⟩, ⟨S256x16x1, p4⟩, ⟨S256x16x1, p5⟩, ⟨S256x16x1, p6⟩, ⟨S256x16x1, p7⟩, ⟨S256x16x1, p8⟩, ⟨S256x16x1, p9⟩, ⟨S256x16x1, p10⟩, ⟨S256x16x1, p11⟩, ⟨S256x16x1, p12⟩, ⟨S256x16x1, p13⟩, ⟨S256x16x1, p14⟩, ⟨S256x16x1, p15⟩] h (ix3 r e j)
      = (![p0, p1, p2, p3, p4, p5, p6, p7, p8, p9, p10, p11, p12, p13, p14, p15] j) (ix3 r e (0 : Fin 1)) := by
  have hi : ∀ b : Fin S256x16x1.rank, b.cast (rfl : S256x16x1.rank = S256x16x16.rank) ≠ 2 →
      ((ix3 r e (0 : Fin 1) : S256x16x1.Idx) b).val = ((ix3 r e j : S256x16x16.Idx) (b.cast rfl)).val := by
    intro b hb
    match b with
    | ⟨0, _⟩ => rfl
    | ⟨1, _⟩ => rfl
    | ⟨2, _⟩ => exact absurd rfl hb
  exact concatenate_ofFn_unit_apply (t := S256x16x16) (s₁ := S256x16x1) 2 (![p0, p1, p2, p3, p4, p5, p6, p7, p8, p9, p10, p11, p12, p13, p14, p15]) h rfl rfl
    (ix3 r e j) j rfl (ix3 r e (0 : Fin 1)) hi

/-- THE SIMILARITY BLOCK: entry (r, e, j) of the joined block is the inner product of the projections of query slot e
    and key slot j of token r. -/
theorem similarity_apply (x0 x1 : Vec Ideal S4096x256 .f32) (x3 x4 : Vec Ideal S256x64 .f32)
    (r : Fin 256) (e j : Fin 16) :
    k0_pay1 (k0_pay12 (k0_pay3 x0 x3) (k0_pay4 x1 x4)) (k0_pay13 (k0_pay5 x0 x1 x3 x4)) (k0_pay14 (k0_pay6 x0 x1 x3 x4)) (k0_pay15 (k0_pay7 x0 x1 x3 x4)) (k0_pay16 (k0_pay8 x0 x1 x3 x4)) (k0_pay17 (k0_pay9 x0 x1 x3 x4)) (k0_pay18 (k0_pay10 x0 x1 x3 x4)) (k0_pay19 (k0_pay11 x0 x1 x3 x4)) (k0_pay20 (k0_pay3 x0 x3) (k0_pay4 x1 x4)) (k0_pay21 (k0_pay3 x0 x3) (k0_pay4 x1 x4)) (k0_pay22 (k0_pay3 x0 x3) (k0_pay4 x1 x4)) (k0_pay23 (k0_pay3 x0 x3) (k0_pay4 x1 x4)) (k0_pay24 (k0_pay3 x0 x3) (k0_pay4 x1 x4)) (k0_pay25 (k0_pay3 x0 x3) (k0_pay4 x1 x4)) (k0_pay26 (k0_pay3 x0 x3) (k0_pay4 x1 x4)) (k0_pay27 (k0_pay3 x0 x3) (k0_pay4 x1 x4)) (ix3 r e j)
      = sim (fun e' d => x0 (ix2 (slotRow r e') d)) (fun j' d => x1 (ix2 (slotRow r j') d))
          (fun d a => x3 (ix2 d a)) (fun d a => x4 (ix2 d a)) e j := by
  have key : ∀ (o : ℕ) (hs : S256x16x64.Slices ![0, o, 0] S256x1x64) (k : Fin 16) (hk : k.val = o)
      (hb : S256x1x64.Broadcasts S256x16x64) (hr : S256x16x64.Reduces [2] S256x16) (hc : S256x16.ShapeCasts S256x16x1),
      shapeCast S256x16x1 (multiReduction .add [2] S256x16 (mulf (k0_pay3 x0 x3)
          (broadcastTo S256x16x64 (extractStridedSlice S256x1x64 ![0, o, 0] (k0_pay4 x1 x4) hs) hb))
          0x00000000#32 hr (.inl rfl) rfl) hc (ix3 r e (0 : Fin 1))
        = sim (fun e' d => x0 (ix2 (slotRow r e') d)) (fun j' d => x1 (ix2 (slotRow r j') d))
            (fun d a => x3 (ix2 d a)) (fun d a => x4 (ix2 d a)) e k := by
    intro o hs k hk hb hr hc
    refine (Rank3Layout.shapeCast_ab_ab1_apply _ hc r e 0).trans ?_
    refine (slotColumn_apply (k0_pay3 x0 x3) (k0_pay4 x1 x4) o hs hb hr r e k hk).trans ?_
    unfold sim
    refine Finset.sum_congr rfl fun a _ => ?_
    rw [query_apply, key_apply]
  unfold k0_pay1
  refine (joined_apply _ _ _ _ _ _ _ _ _ _ _ _ _ _ _ _ _ r e j).trans ?_
  match j with
  | ⟨0, _⟩ => exact key 0 _ ⟨0, by omega⟩ rfl _ _ _
  | ⟨1, _⟩ => exact key 1 _ ⟨1, by omega⟩ rfl _ _ _
  | ⟨2, _⟩ => exact key 2 _ ⟨2, by omega⟩ rfl _ _ _
  | ⟨3, _⟩ => exact key 3 _ ⟨3, by omega⟩ rfl _ _ _
  | ⟨4, _⟩ => exact key 4 _ ⟨4, by omega⟩ rfl _ _ _
  | ⟨5, _⟩ => exact key 5 _ ⟨5, by omega⟩ rfl _ _ _
  | ⟨6, _⟩ => exact key 6 _ ⟨6, by omega⟩ rfl _ _ _
  | ⟨7, _⟩ => exact key 7 _ ⟨7, by omega⟩ rfl _ _ _
  | ⟨8, _⟩ => exact key 8 _ ⟨8, by omega⟩ rfl _ _ _
  | ⟨9, _⟩ => exact key 9 _ ⟨9, by omega⟩ rfl _ _ _
  | ⟨10, _⟩ => exact key 10 _ ⟨10, by omega⟩ rfl _ _ _
  | ⟨11, _⟩ => exact key 11 _ ⟨11, by omega⟩ rfl _ _ _
  | ⟨12, _⟩ => exact key 12 _ ⟨12, by omega⟩ rfl _ _ _
  | ⟨13, _⟩ => exact key 13 _ ⟨13, by omega⟩ rfl _ _ _
  | ⟨14, _⟩ => exact key 14 _ ⟨14, by omega⟩ rfl _ _ _
  | ⟨15, _⟩ => exact key 15 _ ⟨15, by omega⟩ rfl _ _ _
  | ⟨n + 16, hn⟩ => exact absurd hn (by omega)

end Cert.Router.Body

end
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«123269_j82197084111013_2_alg».proof.Proof.LibKeepdims
import proofs.«123269_j82197084111013_2_alg».proof.Proof.LibInDimLayout
import proofs.«123269_j82197084111013_2_alg».proof.Proof.LibExtremeReduce
import proofs.«123269_j82197084111013_2_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.LibLastAxisSoftmax.lean ====
/-
  A softmax along the last axis of a rank-three array, read one line at a time on the extended reals.

  For an [a, b, c] array the line (p, q) is the c entries (p, q, ·).  A kernel takes the maximum of every line with a
  lane reduction (once more against −∞, which changes nothing), casts the [a, b] results to [a, b, 1] and spreads them
  back over the lines, subtracts, exponentiates, sums every line, spreads the sums the same way and divides.  At
  (p, q, k) the result is the softmax of line (p, q) at k.  The line maximum is the supremum of the line, the line sum
  the plain sum; the order in which a reduction folds does not appear.
-/
import Idealize.ShloMosaic.PureOps.Ideal.Laws
import Idealize.ShloMosaic.Lib.ValueIdx
import Idealize.ShloMosaic.Lib.Pipeline.Value
import proofs.«123269_j82197084111013_2_alg».proof.Proof.LibRank3Layout
import proofs.«123269_j82197084111013_2_alg».proof.Proof.LibExtremeReduce
import proofs.«123269_j82197084111013_2_alg».proof.Proof.LibDenseRows

noncomputable section

namespace Cert.LastAxisSoftmax

open Idealize.ShloMosaic Idealize.ShloMosaic.ValueIdx Cert.DenseRows
open scoped BigOperators

/-- Putting coordinate k back on the last axis of the line index (p, q) gives (p, q, k). -/
theorem lift_ix2 {a b c : ℕ} (h : (⟨3, ![a, b, c]⟩ : Shape).Reduces [2] ⟨2, ![a, b]⟩) (p : Fin a) (q : Fin b) (k : Fin c) :
    h.lift (ix2 p q) k = ix3 p q k := by
  funext ax
  apply Fin.ext
  match ax with
  | ⟨0, _⟩ => rfl
  | ⟨1, _⟩ => rfl
  | ⟨2, _⟩ => rfl

/-- A lane maximum along the last axis, from the −∞ word, at line (p, q): the supremum of the line. -/
theorem lane_max_apply {a b c : ℕ} (src : FVec Ideal ⟨3, ![a, b, c]⟩ .f32)
    (h : (⟨3, ![a, b, c]⟩ : Shape).Reduces [2] ⟨2, ![a, b]⟩) (hφ : FKind.Formats .f32)
    (hmax : (0xFF800000#32 : BitVec 32) = FKind.maximumf.neutral .f32 hφ) (p : Fin a) (q : Fin b) :
    multiReduction .maximumf [2] ⟨2, ![a, b]⟩ src 0xFF800000#32 h hφ hmax (ix2 p q) = ⨆ k : Fin c, src (ix3 p q k) :=
  (ExtremeReduce.multiReduction_max_single src h hφ hmax (ix2 p q)).trans
    (iSup_congr fun k => congrArg src (lift_ix2 h p q k))

/-- The kernel's softmax along the last axis of an [a, b, c] array at (p, q, k). -/
theorem softmax_kernel3_apply {a b c : ℕ} (src : FVec Ideal ⟨3, ![a, b, c]⟩ .f32)
    (h : (⟨3, ![a, b, c]⟩ : Shape).Reduces [2] ⟨2, ![a, b]⟩) (hφ : FKind.Formats .f32)
    (hmax : (0xFF800000#32 : BitVec 32) = FKind.maximumf.neutral .f32 hφ)
    (hadd : (0x00000000#32 : BitVec 32) = FKind.add.neutral .f32 hφ)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (k : Fin c) :
    divf (exp (subf src (broadcastTo ⟨3, ![a, b, c]⟩ (shapeCast ⟨3, ![a, b, 1]⟩
            (maximumf (broadcast ⟨2, ![a, b]⟩ (Scalar.ofBits (F := Ideal) .f32 0xFF800000#32))
              (multiReduction .maximumf [2] ⟨2, ![a, b]⟩ src 0xFF800000#32 h hφ hmax)) hc) hb)))
        (broadcastTo ⟨3, ![a, b, c]⟩ (shapeCast ⟨3, ![a, b, 1]⟩
          (multiReduction .add [2] ⟨2, ![a, b]⟩
            (exp (subf src (broadcastTo ⟨3, ![a, b, c]⟩ (shapeCast ⟨3, ![a, b, 1]⟩
              (maximumf (broadcast ⟨2, ![a, b]⟩ (Scalar.ofBits (F := Ideal) .f32 0xFF800000#32))
                (multiReduction .maximumf [2] ⟨2, ![a, b]⟩ src 0xFF800000#32 h hφ hmax)) hc) hb)))
            0x00000000#32 h hφ hadd) hc) hb) (ix3 p q k)
      = softmax (fun k' => src (ix3 p q k')) k := by
  -- the line maximum, spread back over the line, read at any entry of line (p, q)
  have hm : ∀ k' : Fin c, broadcastTo ⟨3, ![a, b, c]⟩ (shapeCast ⟨3, ![a, b, 1]⟩
        (maximumf (broadcast ⟨2, ![a, b]⟩ (Scalar.ofBits (F := Ideal) .f32 0xFF800000#32))
          (multiReduction .maximumf [2] ⟨2, ![a, b]⟩ src 0xFF800000#32 h hφ hmax)) hc) hb (ix3 p q k')
        = max ⊥ (⨆ j : Fin c, src (ix3 p q j)) := by
    intro k'
    rw [Cert.Rank3Layout.column_stretch_apply _ hc hb p q k']
    show max (Ideal.ofBits .f32 0xFF800000#32) (multiReduction .maximumf [2] ⟨2, ![a, b]⟩ src 0xFF800000#32 h hφ hmax (ix2 p q)) = _
    rw [ExtremeReduce.ofBits_negInf, lane_max_apply src h hφ hmax p q]
  -- the exponential of the shifted line, at any entry of line (p, q)
  have he : ∀ k' : Fin c, exp (subf src (broadcastTo ⟨3, ![a, b, c]⟩ (shapeCast ⟨3, ![a, b, 1]⟩
        (maximumf (broadcast ⟨2, ![a, b]⟩ (Scalar.ofBits (F := Ideal) .f32 0xFF800000#32))
          (multiReduction .maximumf [2] ⟨2, ![a, b]⟩ src 0xFF800000#32 h hφ hmax)) hc) hb)) (ix3 p q k')
        = Ideal.exp (src (ix3 p q k') - max ⊥ (⨆ j : Fin c, src (ix3 p q j))) := by
    intro k'
    show Ideal.exp (src (ix3 p q k') - _) = _
    rw [hm k']
  show Ideal.div _ _ = _
  rw [he k, Cert.Rank3Layout.column_stretch_apply _ hc hb p q k,
    Ideal.multiReduction_add_single _ _ h hφ hadd (ix2 p q)]
  unfold softmax
  refine congrArg (Ideal.div _) ?_
  show ∑ k' : Fin c, _ = _
  refine Finset.sum_congr rfl fun k' _ => ?_
  rw [lift_ix2 h p q k', he k']

end Cert.LastAxisSoftmax

end
-- ==== Proof.BodyRouting.lean ====
/-
  From the similarity block of one grid point to its routing weights, read at an index.

  Entry (r, e, j) of the similarity block is scaled by the product with 1/8; a softmax along j turns line (r, e) into
  weights; the gate block, one row of sixteen gate values per token, is spread over the query slots, multiplied with the
  weights and summed over j; a softmax along the rows of the resulting [256, 16] array gives the routing weights.  So
  entry (r, e) of the result depends on token r only: it is the softmax over the slots e' of the gate values averaged
  with the softmax of line (r, e').
-/
import proofs.«123269_j82197084111013_2_alg».proof.Proof.Gen.KernelIdeal.Skeleton
import Idealize.ShloMosaic.Lib.Pipeline.Value
import Idealize.ShloMosaic.Lib.ValueIdx
import Idealize.ShloMosaic.PureOps.Ideal.Laws
import proofs.«123269_j82197084111013_2_alg».proof.Proof.RouterSpec
import proofs.«123269_j82197084111013_2_alg».proof.Proof.LibInnerProducts
import proofs.«123269_j82197084111013_2_alg».proof.Proof.LibUnitAxisLayout
import proofs.«123269_j82197084111013_2_alg».proof.Proof.LibRowSoftmax
import proofs.«123269_j82197084111013_2_alg».proof.Proof.LibLastAxisSoftmax

set_option maxRecDepth 16384

noncomputable section

namespace Cert.Router.Body

open Idealize.ShloMosaic Idealize.ShloMosaic.ValueIdx Cert.KernelIdeal Cert.KernelIdeal.Gen Cert.Router Cert.DenseRows
open scoped BigOperators

/-- THE ROUTING WEIGHTS OF A BLOCK: at (r, e), the softmax over the slots of token r of the gate values averaged with
    the softmax of each line of the scaled similarity block. -/
theorem routing_apply (z : FVec Ideal S256x16x16 .f32) (g : Vec Ideal S256x16 .f32) (r : Fin 256) (e : Fin 16) :
    k0_pay2 z g (ix2 r e)
      = softmax (fun e' => ∑ j : Fin 16, softmax (fun j' => scaleMul (z (ix3 r e' j'))) j * g (ix2 r j)) e := by
  unfold k0_pay2
  refine (softmax_kernel_apply _ _ (.inl rfl) rfl rfl _ _ r e).trans ?_
  refine congrArg (fun f => softmax f e) (funext fun k => ?_)
  refine (InnerProducts.lane_sum_apply _ _ _ (.inl rfl) rfl r k).trans ?_
  refine Finset.sum_congr rfl fun j _ => ?_
  refine congrArg₂ (· * ·) ?_ ?_
  · exact Cert.LastAxisSoftmax.softmax_kernel3_apply _ _ (.inl rfl) rfl rfl _ _ r k j
  · refine (UnitAxisLayout.broadcastTo_a1c_abc_apply _ _ r k j).trans ?_
    refine (UnitAxisLayout.shapeCast_ac_a1c_apply _ _ r 0 j).trans ?_
    rw [shapeCast_self]

end Cert.Router.Body

end
-- ==== Proof.BodyValue.lean ====
/-
  What one grid point leaves in its output block, read at an index.

  The body loads its five input blocks whole, computes, and stores one [256, 16] block whole.  Entry (r, e) of the stored
  block is the routing weight of slot e of token r of the point: the function route of the token's sixteen query rows
  (rows r * 16 + e' of the query block), its sixteen key rows, its row of gate values and the two weight matrices,
  with the similarities scaled by the product with 1/8.
-/
import proofs.«123269_j82197084111013_2_alg».proof.Proof.Gen.KernelIdeal.Frame
import proofs.«123269_j82197084111013_2_alg».proof.Proof.BodySimilarity
import proofs.«123269_j82197084111013_2_alg».proof.Proof.BodyRouting

set_option maxRecDepth 16384

noncomputable section

namespace Cert.Router.Body

open Idealize.ShloMosaic Idealize.ShloMosaic.ValueIdx Cert.KernelIdeal Cert.KernelIdeal.Gen Cert.Router Cert.DenseRows
open scoped BigOperators

theorem origin2 : (![0, 0] : Fin 2 → Nat) = fun _ => 0 := funext fun a => by fin_cases a <;> rfl

/-- THE BLOCK A GRID POINT WRITES: at (r, e) the routing weight of slot e of token r. -/
theorem block_apply (x0 x1 : Vec Ideal S4096x256 .f32) (x2 : Vec Ideal S256x16 .f32) (x3 x4 : Vec Ideal S256x64 .f32)
    (r : Fin 256) (e : Fin 16) :
    out0_5 x0 x1 x2 x3 x4 (ix2 r e)
      = route scaleMul (fun e' d => x0 (ix2 (slotRow r e') d)) (fun j d => x1 (ix2 (slotRow r j) d))
          (fun j => x2 (ix2 r j)) (fun d a => x3 (ix2 d a)) (fun d a => x4 (ix2 d a)) e := by
  unfold out0_5
  rw [View.canon_unit_zero origin2]
  simp only [View.ld_unit_zero (S := S4096x256) origin2, View.ld_unit_zero (S := S256x64) origin2,
    View.ld_unit_zero (S := S256x16) origin2]
  refine (routing_apply _ _ r e).trans ?_
  unfold route gated
  refine congrArg (fun f => softmax f e) (funext fun e' => ?_)
  refine Finset.sum_congr rfl fun j _ => ?_
  refine congrArg (· * x2 (ix2 r j)) ?_
  refine congrArg (fun f => softmax f j) (funext fun j' => ?_)
  exact congrArg scaleMul (similarity_apply x0 x1 x3 x4 r e' j')

end Cert.Router.Body

end
-- ==== Proof.KernelBlocks.lean ====
/-
  From the blocks the grid points write to the whole output array of the region.

  The region runs 32 grid points.  Point t reads rows 4096 t … 4096 t + 4095 of the query and key arrays (256 tokens
  of 16 slots each), rows 256 t … 256 t + 255 of the gate array and both weight matrices whole, and writes rows
  256 t … 256 t + 255 of the [8192, 16] output.  Row r * 16 + e of the point's query block is row (256 t + r) * 16 + e
  of the array, so what point t writes back is block t of ONE function of the arrays: at (n, e) the routing weight of
  slot e of token n.  The 32 blocks tile the output (row n lies in block n / 256), so the output array ends as that
  function.
-/
import proofs.«123269_j82197084111013_2_alg».proof.Proof.Gen.KernelIdeal.Frame
import Idealize.ShloMosaic.Lib.Pipeline.Value
import proofs.«123269_j82197084111013_2_alg».proof.Proof.BodyValue

set_option maxRecDepth 16384

noncomputable section

namespace Cert.Router.Kernel

open Cert.KernelIdeal Cert.KernelIdeal.Gen Idealize.ShloMosaic Idealize.ShloMosaic.TcCoe Idealize.SL.Sem
open Idealize.ShloMosaic.ValueIdx Cert.Router Cert.Router.Body
open Idealize.ShloMosaic.Pipeline (Dat)

variable (m : (ℓ : Loc nD τ sig) → Buf (Elt Ideal) ℓ) (ρ : Dev nD → PrngReg)

/-- The row of the (token, slot) pair (n, e) in the query and key arrays. -/
def tokenRow (n : Fin 8192) (e : Fin 16) : Fin 131072 := ⟨n.val * 16 + e.val, by have := n.isLt; have := e.isLt; omega⟩

/-- The region's output as one function of the arrays it reads: at (n, e) the routing weight of slot e of token n. -/
def pointwise (v0 v1 : S131072x256.Idx → EReal) (v2 : S8192x16.Idx → EReal) (w3 w4 : S256x64.Idx → EReal) :
    S8192x16.Idx → EReal := fun i =>
  route scaleMul (fun e d => v0 (ix2 (tokenRow (i 0) e) d)) (fun j d => v1 (ix2 (tokenRow (i 0) j) d))
    (fun j => v2 (ix2 (i 0) j)) (fun d a => w3 (ix2 d a)) (fun d a => w4 (ix2 d a)) (i 1)

/-- The printed index maps, decided over the grid: the row-blocked windows are at block t, the weights at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of the pointwise function of the arrays as the region finds them. -/
theorem flushed_eq (c : Dev nD) (t : Fin cfg0.N) :
    (dats m 0 c).flushed 5 t = ((cfg0.win 5).blk t).view.read (Elt Ideal)
      (pointwise (V m c main_v0) (V m c main_v1) (V m c main_v2) (V m c main_arg3) (V m c main_arg4)) := by
  show (cfg0.win 5).cut (grid0.coords t) ((dats m 0 c).after 5 t) = _
  rw [after0_5]
  obtain ⟨e00, e01, e10, e11, e20, e21, e30, e31, e40, e41, e50, e51⟩ := idx_facts t
  have ht : t.val < 32 := t.isLt
  funext y
  obtain ⟨r, e, rfl⟩ : ∃ (r : Fin 256) (e : Fin 16), y = ix2 r e := ⟨y 0, y 1, eq_ix2 y⟩
  show out0_5 (iblk m c 0 t) (iblk m c 1 t) (iblk m c 2 t) (iblk m c 3 t) (iblk m c 4 t) (ix2 r e)
    = pointwise (V m c main_v0) (V m c main_v1) (V m c main_v2) (V m c main_arg3) (V m c main_arg4)
        (((cfg0.win 5).blk t).view.emb (ix2 r e))
  refine (block_apply (iblk m c 0 t) (iblk m c 1 t) (iblk m c 2 t) (iblk m c 3 t) (iblk m c 4 t) r e).trans ?_
  -- the token of the array that row r of the block is
  have hr : r.val < 256 := r.isLt
  have he : e.val < 16 := e.isLt
  have hn : ((((cfg0.win 5).blk t).view.emb (ix2 r e)) 0).val = t.val * 256 + r.val := by
    show win0_5.index t (0 : Fin 2) * 256 + 1 * r.val = _
    omega
  have hs : (((cfg0.win 5).blk t).view.emb (ix2 r e)) 1 = e := by
    apply Fin.ext
    show win0_5.index t (1 : Fin 2) * 16 + 1 * e.val = _
    omega
  have hA : (fun (e' : Fin 16) (d : Fin 256) => iblk m c 0 t (ix2 (slotRow r e') d))
      = fun e' d => V m c main_v0 (ix2 (tokenRow ((((cfg0.win 5).blk t).view.emb (ix2 r e)) 0) e') d) := by
    funext e' d
    show V m c main_v0 (((cfg0.win 0).blk t).view.emb (ix2 (slotRow r e') d)) = _
    refine congrArg (V m c main_v0) (funext fun a => Fin.ext ?_)
    have he' : e'.val < 16 := e'.isLt
    match a with
    | ⟨0, _⟩ =>
      show win0_0.index t (0 : Fin 2) * 4096 + 1 * (r.val * 16 + e'.val)
        = ((((cfg0.win 5).blk t).view.emb (ix2 r e)) 0).val * 16 + e'.val
      rw [hn]; omega
    | ⟨1, _⟩ => show win0_0.index t (1 : Fin 2) * 256 + 1 * d.val = d.val; omega
  have hB : (fun (j : Fin 16) (d : Fin 256) => iblk m c 1 t (ix2 (slotRow r j) d))
      = fun j d => V m c main_v1 (ix2 (tokenRow ((((cfg0.win 5).blk t).view.emb (ix2 r e)) 0) j) d) := by
    funext j d
    show V m c main_v1 (((cfg0.win 1).blk t).view.emb (ix2 (slotRow r j) d)) = _
    refine congrArg (V m c main_v1) (funext fun a => Fin.ext ?_)
    have hj : j.val < 16 := j.isLt
    match a with
    | ⟨0, _⟩ =>
      show win0_1.index t (0 : Fin 2) * 4096 + 1 * (r.val * 16 + j.val)
        = ((((cfg0.win 5).blk t).view.emb (ix2 r e)) 0).val * 16 + j.val
      rw [hn]; omega
    | ⟨1, _⟩ => show win0_1.index t (1 : Fin 2) * 256 + 1 * d.val = d.val; omega
  have hC : (fun (j : Fin 16) => iblk m c 2 t (ix2 r j))
      = fun j => V m c main_v2 (ix2 ((((cfg0.win 5).blk t).view.emb (ix2 r e)) 0) j) := by
    funext j
    show V m c main_v2 (((cfg0.win 2).blk t).view.emb (ix2 r j)) = _
    refine congrArg (V m c main_v2) (funext fun a => Fin.ext ?_)
    match a with
    | ⟨0, _⟩ =>
      show win0_2.index t (0 : Fin 2) * 256 + 1 * r.val = ((((cfg0.win 5).blk t).view.emb (ix2 r e)) 0).val
      rw [hn]; omega
    | ⟨1, _⟩ => show win0_2.index t (1 : Fin 2) * 16 + 1 * j.val = j.val; omega
  have hD : (fun (d : Fin 256) (a : Fin 64) => iblk m c 3 t (ix2 d a)) = fun d a => V m c main_arg3 (ix2 d a) := by
    funext d a
    show V m c main_arg3 (((cfg0.win 3).blk t).view.emb (ix2 d a)) = _
    refine congrArg (V m c main_arg3) (funext fun ax => Fin.ext ?_)
    match ax with
    | ⟨0, _⟩ => show win0_3.index t (0 : Fin 2) * 256 + 1 * d.val = d.val; omega
    | ⟨1, _⟩ => show win0_3.index t (1 : Fin 2) * 64 + 1 * a.val = a.val; omega
  have hE : (fun (d : Fin 256) (a : Fin 64) => iblk m c 4 t (ix2 d a)) = fun d a => V m c main_arg4 (ix2 d a) := by
    funext d a
    show V m c main_arg4 (((cfg0.win 4).blk t).view.emb (ix2 d a)) = _
    refine congrArg (V m c main_arg4) (funext fun ax => Fin.ext ?_)
    match ax with
    | ⟨0, _⟩ => show win0_4.index t (0 : Fin 2) * 256 + 1 * d.val = d.val; omega
    | ⟨1, _⟩ => show win0_4.index t (1 : Fin 2) * 64 + 1 * a.val = a.val; omega
  rw [hA, hB, hC, hD, hE]
  unfold pointwise
  rw [hs]

/-- An index of the output array is in point t's block iff each coordinate is in the block's range on its axis. -/
theorem mem_blk (t : Fin cfg0.N) (i : S8192x16.Idx) :
    i ∈ ((cfg0.win 5).blk t).view.set ↔ ∀ a : Fin 2, win0_5.index t a * S256x16.size a ≤ (i a).val
      ∧ (i a).val < win0_5.index t a * S256x16.size a + S256x16.size a := by
  show i ∈ ((View.whole main_v3).slice (win0_5.rect t)).set ↔ _
  rw [View.set_slice_whole, Rect.mem_set_unit]
  exact Iff.rfl

/-- Every index of the output array is in some point's block: row n is in block n / 256. -/
theorem cover (i : S8192x16.Idx) :
    ∃ t : Fin cfg0.N, (cfg0.win 5).flush t = true ∧ i ∈ ((cfg0.win 5).blk t).view.set := by
  have hi0 : (i 0).val < 8192 := (i 0).isLt
  have hi1 : (i 1).val < 16 := (i 1).isLt
  have hN : cfg0.N = 32 := N_0
  let t : Fin cfg0.N := ⟨(i 0).val / 256, by rw [hN]; omega⟩
  obtain ⟨e00, e01, e10, e11, e20, e21, e30, e31, e40, e41, e50, e51⟩ := idx_facts t
  have htv : t.val = (i 0).val / 256 := rfl
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 16 ≤ (i 1).val ∧ (i 1).val < win0_5.index t (1 : Fin 2) * 16 + 16
    omega

/-- THE OUTPUT ARRAY after the region: the pointwise function of the arrays as the region finds them. -/
theorem final (c : Dev nD) :
    (dats m 0 c).arrAt 5 cfg0.N
      = pointwise (V m c main_v0) (V m c main_v1) (V m c main_v2) (V m c main_arg3) (V m c main_arg4) :=
  (dats m 0 c).arrAt_eq_of_cover 5 _ (fun t _ => flushed_eq m c t) cover

end Cert.Router.Kernel

end
-- ==== Proof.RoutedArray.lean ====
/-
  The routing weights of every token of the batch, as one array.

  The inputs are the gate values [4, 2048, 16, 1], the query rows and key rows [4, 2048, 16, 256] and the two weight
  matrices [256, 64]; token (b, s) has the sixteen slots (b, s, ·).  Entry (b, s, e) of the result is the routing weight
  of slot e of token (b, s).
-/
import proofs.«123269_j82197084111013_2_alg».proof.Proof.RouterSpec
import Idealize.ShloMosaic.Lib.ValueIdx

noncomputable section

namespace Cert.Router

open Idealize.ShloMosaic Idealize.ShloMosaic.ValueIdx

/-- Entry (b, s, e): the function route of token (b, s)'s query rows, key rows and gate values and of the weights, at e. -/
def routed (sc : EReal → EReal) (a0 : (⟨4, ![4, 2048, 16, 1]⟩ : Shape).Idx → EReal)
    (a1 a2 : (⟨4, ![4, 2048, 16, 256]⟩ : Shape).Idx → EReal) (a3 a4 : (⟨2, ![256, 64]⟩ : Shape).Idx → EReal) :
    (⟨3, ![4, 2048, 16]⟩ : Shape).Idx → EReal := fun i =>
  route sc (fun e d => a1 (ix4 (i 0) (i 1) e d)) (fun j d => a2 (ix4 (i 0) (i 1) j d))
    (fun j => a0 (ix4 (i 0) (i 1) j (0 : Fin 1))) (fun d a => a3 (ix2 d a)) (fun d a => a4 (ix2 d a)) (i 2)

end Cert.Router

end
-- ==== Proof.KernelRun.lean ====
/-
  The idealized kernel's run: its result array is the routing weights of every token.

  Before the region the program views the query and key arrays [4, 2048, 16, 256] as [131072, 256] and the gate
  array [4, 2048, 16, 1] as [8192, 16]; after it, it views the [8192, 16] output as [4, 2048, 16].  A reshape keeps
  the row-major position of every element: token (b, s) is row b * 2048 + s of the gates and of the output, and its
  slot e is row (b * 2048 + s) * 16 + e of the queries and keys.  So the region's pointwise function of the reshaped
  arrays, reshaped back, is at (b, s, e) the routing weight of slot e of token (b, s) of the argument arrays.
-/
import proofs.«123269_j82197084111013_2_alg».proof.Proof.Gen.KernelIdeal.Frame
import Idealize.ShloMosaic.Lib.Pipeline.Value
import Idealize.ShloMosaic.Lib.StableHlo.Run
import proofs.«123269_j82197084111013_2_alg».proof.Proof.KernelBlocks
import proofs.«123269_j82197084111013_2_alg».proof.Proof.RoutedArray

set_option maxRecDepth 16384

noncomputable section

namespace Cert.Router.Kernel

open Cert.KernelIdeal Cert.KernelIdeal.Gen Idealize.ShloMosaic Idealize.ShloMosaic.TcCoe Idealize.SL.Sem
open Idealize.ShloMosaic.ValueIdx Cert.Router Cert.Router.Body Idealize.ShloMosaic.StableHlo
open Idealize.ShloMosaic.Pipeline (Dat)

/-- The row of token (b, s) in the gate array and in the output. -/
def tokenOf (b : Fin 4) (s : Fin 2048) : Fin 8192 := ⟨b.val * 2048 + s.val, by have := b.isLt; have := s.isLt; omega⟩

/-- The region's pointwise function of the reshaped arguments, reshaped back, is the routing weights of every token. -/
theorem reshaped_eq (a0 : S4x2048x16x1.Idx → EReal) (a1 a2 : S4x2048x16x256.Idx → EReal) (a3 a4 : S256x64.Idx → EReal)
    (h1 : S4x2048x16x256.ShapeCasts S131072x256) (h0 : S4x2048x16x1.ShapeCasts S8192x16)
    (h4 : S8192x16.ShapeCasts S4x2048x16) :
    shapeCast S4x2048x16 (pointwise (shapeCast S131072x256 a1 h1) (shapeCast S131072x256 a2 h1) (shapeCast S8192x16 a0 h0) a3 a4) h4
      = routed scaleMul a0 a1 a2 a3 a4 := by
  funext i
  obtain ⟨b, s, e, rfl⟩ : ∃ (b : Fin 4) (s : Fin 2048) (e : Fin 16), i = ix3 b s e := ⟨i 0, i 1, i 2, eq_ix3 i⟩
  have hb := b.isLt
  have hs := s.isLt
  have he := e.isLt
  rw [shapeCast_apply _ h4 (ix3 b s e) (ix2 (tokenOf b s) e) (by
    rw [Shape.rowMajor_val_two, Shape.rowMajor_val_three]
    show (b.val * 2048 + s.val) * 16 + e.val = (b.val * 2048 + s.val) * 16 + e.val
    rfl)]
  have hA : ∀ (e' : Fin 16) (d : Fin 256),
      shapeCast S131072x256 a1 h1 (ix2 (tokenRow (tokenOf b s) e') d) = a1 (ix4 b s e' d) := fun e' d =>
    shapeCast_apply a1 h1 _ _ (by
      rw [Shape.rowMajor_val_four, Shape.rowMajor_val_two]
      show ((b.val * 2048 + s.val) * 16 + e'.val) * 256 + d.val = ((b.val * 2048 + s.val) * 16 + e'.val) * 256 + d.val
      rfl)
  have hB : ∀ (j : Fin 16) (d : Fin 256),
      shapeCast S131072x256 a2 h1 (ix2 (tokenRow (tokenOf b s) j) d) = a2 (ix4 b s j d) := fun j d =>
    shapeCast_apply a2 h1 _ _ (by
      rw [Shape.rowMajor_val_four, Shape.rowMajor_val_two]
      show ((b.val * 2048 + s.val) * 16 + j.val) * 256 + d.val = ((b.val * 2048 + s.val) * 16 + j.val) * 256 + d.val
      rfl)
  have hC : ∀ j : Fin 16, shapeCast S8192x16 a0 h0 (ix2 (tokenOf b s) j) = a0 (ix4 b s j (0 : Fin 1)) := fun j =>
    shapeCast_apply a0 h0 _ _ (by
      rw [Shape.rowMajor_val_four, Shape.rowMajor_val_two]
      show ((b.val * 2048 + s.val) * 16 + j.val) * 1 + 0 = (b.val * 2048 + s.val) * 16 + j.val
      omega)
  show route scaleMul (fun e' d => shapeCast S131072x256 a1 h1 (ix2 (tokenRow (tokenOf b s) e') d))
      (fun j d => shapeCast S131072x256 a2 h1 (ix2 (tokenRow (tokenOf b s) j) d))
      (fun j => shapeCast S8192x16 a0 h0 (ix2 (tokenOf b s) j)) (fun d a => a3 (ix2 d a)) (fun d a => a4 (ix2 d a)) e
    = route scaleMul (fun e' d => a1 (ix4 b s e' d)) (fun j d => a2 (ix4 b s j d))
        (fun j => a0 (ix4 b s j (0 : Fin 1))) (fun d a => a3 (ix2 d a)) (fun d a => a4 (ix2 d a)) e
  simp only [hA, hB, hC]

variable (m : (ℓ : Loc nD τ sig) → Buf (Elt Ideal) ℓ) (ρ : Dev nD → PrngReg)

/-- The query array as the region finds it: argument 1 viewed as [131072, 256]. -/
theorem entry_queries (c : Dev nD) : (V m c main_v0 : S131072x256.Idx → EReal)
    = shapeCast S131072x256 (m ((c : Thread nD τ).loc main_arg1)) shapeCasts_S4x2048x16x256_S131072x256 := by
  show StableHlo.after hostOps0 (fun b => m (c, b)) (Proc.devRef .tc main_v0) = _
  after_results
  rfl

/-- The key array as the region finds it: argument 2 viewed as [131072, 256]. -/
theorem entry_keys (c : Dev nD) : (V m c main_v1 : S131072x256.Idx → EReal)
    = shapeCast S131072x256 (m ((c : Thread nD τ).loc main_arg2)) shapeCasts_S4x2048x16x256_S131072x256 := by
  show StableHlo.after hostOps0 (fun b => m (c, b)) (Proc.devRef .tc main_v1) = _
  after_results
  rfl

/-- The gate array as the region finds it: argument 0 viewed as [8192, 16]. -/
theorem entry_gates (c : Dev nD) : (V m c main_v2 : S8192x16.Idx → EReal)
    = shapeCast S8192x16 (m ((c : Thread nD τ).loc main_arg0)) shapeCasts_S4x2048x16x1_S8192x16 := by
  show StableHlo.after hostOps0 (fun b => m (c, b)) (Proc.devRef .tc main_v2) = _
  after_results
  rfl

/-- The program's result after the lines that follow the region: the region's output viewed as [4, 2048, 16]. -/
theorem tail_eq (c : Dev nD) :
    (Pipeline.afterTail₀ cfgs (dats m) 0 (V0 m) [hostOps1] c main_v4 : S4x2048x16.Idx → EReal)
      = shapeCast S4x2048x16
          (pointwise (V m c main_v0) (V m c main_v1) (V m c main_v2) (V m c main_arg3) (V m c main_arg4))
          shapeCasts_S8192x16_S4x2048x16 := by
  have hw : Pipeline.withArrays (cfgs 0).spec c (V0 m c) (fun w => (dats m 0 c).arrAt w (cfgs 0).N)
        (Proc.devRef .tc main_v3)
      = pointwise (V m c main_v0) (V m c main_v1) (V m c main_v2) (V m c main_arg3) (V m c main_arg4) :=
    (Pipeline.withArrays_arr spec0 launch0.win.arr_inj c _ _ 5).trans (final m c)
  unfold Pipeline.afterTail₀
  show StableHlo.after hostOps1 _ (Proc.devRef .tc main_v4) = _
  after_results
  show (fun i => shapeCast S4x2048x16 (Pipeline.withArrays (cfgs 0).spec c (V0 m c)
      (fun w => (dats m 0 c).arrAt w (cfgs 0).N) (Proc.devRef .tc main_v3)) shapeCasts_S8192x16_S4x2048x16 i) = _
  rw [hw]

/-- The program's result is the routing weights of every token of the argument arrays. -/
theorem result_eq (c : Dev nD) :
    (Pipeline.afterTail₀ cfgs (dats m) 0 (V0 m) [hostOps1] c main_v4 : S4x2048x16.Idx → EReal)
      = routed scaleMul (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq, entry_queries, entry_keys, entry_gates, V_main_arg3, V_main_arg4]
  exact reshaped_eq _ _ _ _ _ _ _ _

/-- THE KERNEL'S RUN: every weakly fair execution terminates with the result array at the routing weights of every
    token of the argument arrays, and the argument arrays unchanged. -/
theorem run : θ_run defs (onTc (τ := τ) (main (F := Ideal))) ⟨m, fun _ => 0, ρ⟩ fun r => ∀ c : Dev nD,
      r.2.mem ((c : Thread nD τ).loc main_v4)
        = routed scaleMul (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Router.Kernel

end
-- ==== Proof.ReferenceValue.lean ====
/-
  The reference program's result, read one stage at a time, is the routing weights of every token.

  The reference projects all query and key rows at once, takes for every token the inner products of the projected
  query slots with the projected key slots, divides them by the square root of 64, applies a softmax along the key slots,
  contracts the weights with the token's gate values, drops the unit axis and applies a softmax along the slots.  Each
  stage is read at the coordinates (b, s, e, j) of a token (b, s), a query slot e and a key slot j; a maximum over an axis
  is the supremum over that axis's coordinates, a sum over an axis the plain sum.
-/
import proofs.«123269_j82197084111013_2_alg».proof.Proof.Gen.ReferenceIdeal.Read
import proofs.«123269_j82197084111013_2_alg».proof.Proof.RoutedArray
import proofs.«123269_j82197084111013_2_alg».proof.Proof.LibExtremeReduce

set_option maxRecDepth 16384

noncomputable section

namespace Cert.Router.Reference

open Cert.ReferenceIdeal Cert.ReferenceIdeal.Gen Cert.ReferenceIdeal.Read
open Idealize.ShloMosaic Idealize.ShloMosaic.ValueIdx Cert.Router Cert.DenseRows
open scoped BigOperators

variable (x0 : (⟨S4x2048x16x1, .f32⟩ : BufTy).Contents (Elt Ideal))
  (x1 x2 : (⟨S4x2048x16x256, .f32⟩ : BufTy).Contents (Elt Ideal))
  (x3 x4 : (⟨S256x64, .f32⟩ : BufTy).Contents (Elt Ideal))
  (b : Fin 4) (s : Fin 2048)

/-- The projected query slot e of token (b, s). -/
theorem query_at (e : Fin 16) (a : Fin 64) :
    val_main_v0 (F := Ideal) x1 x3 (ix4 b s e a) = proj (fun d => x1 (ix4 b s e d)) (fun d a => x3 (ix2 d a)) a := by
  rw [val_main_v0_apply]
  unfold proj
  refine Finset.sum_congr rfl fun d _ => ?_
  have hl : lidx_main_v0 (ix4 b s e a) d = ix4 b s e d := funext fun ax => Fin.ext (by match ax with | ⟨0, _⟩ => rfl | ⟨1, _⟩ => rfl | ⟨2, _⟩ => rfl | ⟨3, _⟩ => rfl)
  have hr : ridx_main_v0 (ix4 b s e a) d = ix2 d a := funext fun ax => Fin.ext (by match ax with | ⟨0, _⟩ => rfl | ⟨1, _⟩ => rfl)
  rw [hl, hr]

/-- The projected key slot j of token (b, s). -/
theorem key_at (j : Fin 16) (a : Fin 64) :
    val_main_v1 (F := Ideal) x2 x4 (ix4 b s j a) = proj (fun d => x2 (ix4 b s j d)) (fun d a => x4 (ix2 d a)) a := by
  rw [val_main_v1_apply]
  unfold proj
  refine Finset.sum_congr rfl fun d _ => ?_
  have hl : lidx_main_v1 (ix4 b s j a) d = ix4 b s j d := funext fun ax => Fin.ext (by match ax with | ⟨0, _⟩ => rfl | ⟨1, _⟩ => rfl | ⟨2, _⟩ => rfl | ⟨3, _⟩ => rfl)
  have hr : ridx_main_v1 (ix4 b s j a) d = ix2 d a := funext fun ax => Fin.ext (by match ax with | ⟨0, _⟩ => rfl | ⟨1, _⟩ => rfl)
  rw [hl, hr]

/-- The inner product of projected query slot e and projected key slot j. -/
theorem sim_at (e j : Fin 16) :
    val_main_v2 (F := Ideal) x1 x2 x3 x4 (ix4 b s e j) = sim (fun e' d => x1 (ix4 b s e' d)) (fun j' d => x2 (ix4 b s j' d)) (fun d a => x3 (ix2 d a)) (fun d a => x4 (ix2 d a)) e j := by
  rw [val_main_v2_apply]
  unfold sim
  refine Finset.sum_congr rfl fun a _ => ?_
  have hl : lidx_main_v2 (ix4 b s e j) a = ix4 b s e a := funext fun ax => Fin.ext (by match ax with | ⟨0, _⟩ => rfl | ⟨1, _⟩ => rfl | ⟨2, _⟩ => rfl | ⟨3, _⟩ => rfl)
  have hr : ridx_main_v2 (ix4 b s e j) a = ix4 b s j a := funext fun ax => Fin.ext (by match ax with | ⟨0, _⟩ => rfl | ⟨1, _⟩ => rfl | ⟨2, _⟩ => rfl | ⟨3, _⟩ => rfl)
  rw [hl, hr, query_at, key_at]

/-- The similarity divided by the square root of 64. -/
theorem scaled_at (e j : Fin 16) :
    val_main_v5 (F := Ideal) x1 x2 x3 x4 (ix4 b s e j) = scaleDiv (sim (fun e' d => x1 (ix4 b s e' d)) (fun j' d => x2 (ix4 b s j' d)) (fun d a => x3 (ix2 d a)) (fun d a => x4 (ix2 d a)) e j) := by
  rw [val_main_v5_apply, val_main_v4_apply, val_main_v3_apply, val_main_cst_apply, sim_at]
  rfl

/-- Putting key slot k back on the last axis of (b, s, e). -/
theorem lift_slot (h : S4x2048x16x16.Reduces [3] S4x2048x16) (e k : Fin 16) : h.lift (ix3 b s e) k = ix4 b s e k :=
  funext fun ax => Fin.ext (by match ax with | ⟨0, _⟩ => rfl | ⟨1, _⟩ => rfl | ⟨2, _⟩ => rfl | ⟨3, _⟩ => rfl)

/-- The maximum of line (b, s, e) of the scaled similarities, taken once more against −∞. -/
theorem linemax_at (e : Fin 16) :
    val_main_v8 (F := Ideal) x1 x2 x3 x4 (ix3 b s e) = max ⊥ (⨆ j : Fin 16, val_main_v5 (F := Ideal) x1 x2 x3 x4 (ix4 b s e j)) := by
  rw [val_main_v8_apply, val_main_v7_apply, val_main_cst_1_apply]
  show max (Ideal.ofBits .f32 0xFF800000#32) (val_main_v6 (F := Ideal) x1 x2 x3 x4 (ix3 b s e)) = _
  rw [ExtremeReduce.ofBits_negInf]
  refine congrArg (max ⊥) ?_
  unfold val_main_v6
  refine (ExtremeReduce.hostReduce_max_single _ reducesTo_S4x2048x16x16_S4x2048x16_d3 (by decide) h_S_ (ix3 b s e)).trans ?_
  exact iSup_congr fun k => congrArg _ (lift_slot b s _ e k)

/-- The line maximum spread back over the line. -/
theorem linemax_spread_at (e j : Fin 16) :
    val_main_v10 (F := Ideal) x1 x2 x3 x4 (ix4 b s e j) = val_main_v8 (F := Ideal) x1 x2 x3 x4 (ix3 b s e) := by
  rw [val_main_v10_apply, val_main_v9_apply]
  exact congrArg _ (funext fun ax => Fin.ext (by match ax with | ⟨0, _⟩ => rfl | ⟨1, _⟩ => rfl | ⟨2, _⟩ => rfl))

/-- The exponential of the shifted line. -/
theorem exp_at (e j : Fin 16) :
    val_main_v12 (F := Ideal) x1 x2 x3 x4 (ix4 b s e j)
      = Ideal.exp (val_main_v5 (F := Ideal) x1 x2 x3 x4 (ix4 b s e j) - val_main_v8 (F := Ideal) x1 x2 x3 x4 (ix3 b s e)) := by
  rw [val_main_v12_apply, val_main_v11_apply, linemax_spread_at]
  rfl

/-- The sum of the exponentials of line (b, s, e). -/
theorem expsum_at (e : Fin 16) :
    val_main_v13 (F := Ideal) x1 x2 x3 x4 (ix3 b s e) = ∑ j : Fin 16, val_main_v12 (F := Ideal) x1 x2 x3 x4 (ix4 b s e j) := by
  rw [val_main_v13_apply]
  show Ideal.ofBits .f32 0x00000000#32 + _ = _
  rw [Ideal.ofBits_zero_f32, zero_add]
  exact Finset.sum_congr rfl fun j _ => congrArg _ (funext fun ax => Fin.ext (by match ax with | ⟨0, _⟩ => rfl | ⟨1, _⟩ => rfl | ⟨2, _⟩ => rfl | ⟨3, _⟩ => rfl))

/-- The softmax of line (b, s, e) of the scaled similarities at key slot j. -/
theorem weight_at (e j : Fin 16) :
    val_main_v16 (F := Ideal) x1 x2 x3 x4 (ix4 b s e j)
      = softmax (fun j' => scaleDiv (sim (fun e' d => x1 (ix4 b s e' d)) (fun j' d => x2 (ix4 b s j' d)) (fun d a => x3 (ix2 d a)) (fun d a => x4 (ix2 d a)) e j')) j := by
  rw [val_main_v16_apply, val_main_v15_apply, val_main_v14_apply]
  have hi : idx_main_v14 (idx_main_v15 (ix4 b s e j)) = ix3 b s e := funext fun ax => Fin.ext (by match ax with | ⟨0, _⟩ => rfl | ⟨1, _⟩ => rfl | ⟨2, _⟩ => rfl)
  rw [hi, expsum_at, exp_at, linemax_at]
  unfold softmax
  show Ideal.div _ _ = Ideal.div _ _
  simp only [exp_at, linemax_at, scaled_at]

/-- The gate values of token (b, s) averaged with the weights of line (b, s, e). -/
theorem gated_at (e : Fin 16) :
    val_main_v18 (F := Ideal) x0 x1 x2 x3 x4 (ix3 b s e) = gated scaleDiv (fun e' d => x1 (ix4 b s e' d)) (fun j' d => x2 (ix4 b s j' d)) (fun j' => x0 (ix4 b s j' (0 : Fin 1))) (fun d a => x3 (ix2 d a)) (fun d a => x4 (ix2 d a)) e := by
  rw [val_main_v18_apply]
  have hi : idx_main_v18 (ix3 b s e) = ix4 b s e (0 : Fin 1) := funext fun ax => Fin.ext (by
    have hb := b.isLt
    have hs := s.isLt
    have he := e.isLt
    match ax with
    | ⟨0, _⟩ => show ((b.val * 2048 + s.val) * 16 + e.val) / 32768 = b.val; omega
    | ⟨1, _⟩ => show ((b.val * 2048 + s.val) * 16 + e.val) / 16 % 2048 = s.val; omega
    | ⟨2, _⟩ => show ((b.val * 2048 + s.val) * 16 + e.val) / 1 % 16 = e.val; omega
    | ⟨3, _⟩ => rfl)
  rw [hi, val_main_v17_apply]
  unfold gated
  refine Finset.sum_congr rfl fun j _ => ?_
  have hl : lidx_main_v17 (ix4 b s e (0 : Fin 1)) j = ix4 b s e j := funext fun ax => Fin.ext (by match ax with | ⟨0, _⟩ => rfl | ⟨1, _⟩ => rfl | ⟨2, _⟩ => rfl | ⟨3, _⟩ => rfl)
  have hr : ridx_main_v17 (ix4 b s e (0 : Fin 1)) j = ix4 b s j (0 : Fin 1) := funext fun ax => Fin.ext (by match ax with | ⟨0, _⟩ => rfl | ⟨1, _⟩ => rfl | ⟨2, _⟩ => rfl | ⟨3, _⟩ => rfl)
  rw [hl, hr, weight_at]

/-- Putting slot k back on the last axis of (b, s). -/
theorem lift_token (h : S4x2048x16.Reduces [2] S4x2048) (k : Fin 16) : h.lift (ix2 b s) k = ix3 b s k :=
  funext fun ax => Fin.ext (by match ax with | ⟨0, _⟩ => rfl | ⟨1, _⟩ => rfl | ⟨2, _⟩ => rfl)

/-- The maximum of the gated values of token (b, s), taken once more against −∞. -/
theorem tokenmax_at :
    val_main_v21 (F := Ideal) x0 x1 x2 x3 x4 (ix2 b s) = max ⊥ (⨆ e : Fin 16, val_main_v18 (F := Ideal) x0 x1 x2 x3 x4 (ix3 b s e)) := by
  rw [val_main_v21_apply, val_main_v20_apply, val_main_cst_4_apply]
  show max (Ideal.ofBits .f32 0xFF800000#32) (val_main_v19 (F := Ideal) x0 x1 x2 x3 x4 (ix2 b s)) = _
  rw [ExtremeReduce.ofBits_negInf]
  refine congrArg (max ⊥) ?_
  unfold val_main_v19
  refine (ExtremeReduce.hostReduce_max_single _ reducesTo_S4x2048x16_S4x2048_d2 (by decide) h_S_ (ix2 b s)).trans ?_
  exact iSup_congr fun k => congrArg _ (lift_token b s _ k)

/-- The token maximum spread back over the slots. -/
theorem tokenmax_spread_at (e : Fin 16) :
    val_main_v23 (F := Ideal) x0 x1 x2 x3 x4 (ix3 b s e) = val_main_v21 (F := Ideal) x0 x1 x2 x3 x4 (ix2 b s) := by
  rw [val_main_v23_apply, val_main_v22_apply]
  exact congrArg _ (funext fun ax => Fin.ext (by match ax with | ⟨0, _⟩ => rfl | ⟨1, _⟩ => rfl))

/-- The exponential of the shifted gated values. -/
theorem tokenexp_at (e : Fin 16) :
    val_main_v25 (F := Ideal) x0 x1 x2 x3 x4 (ix3 b s e)
      = Ideal.exp (val_main_v18 (F := Ideal) x0 x1 x2 x3 x4 (ix3 b s e) - val_main_v21 (F := Ideal) x0 x1 x2 x3 x4 (ix2 b s)) := by
  rw [val_main_v25_apply, val_main_v24_apply, tokenmax_spread_at]
  rfl

/-- The sum of the exponentials over the slots of token (b, s). -/
theorem tokensum_at :
    val_main_v26 (F := Ideal) x0 x1 x2 x3 x4 (ix2 b s) = ∑ e : Fin 16, val_main_v25 (F := Ideal) x0 x1 x2 x3 x4 (ix3 b s e) := by
  rw [val_main_v26_apply]
  show Ideal.ofBits .f32 0x00000000#32 + _ = _
  rw [Ideal.ofBits_zero_f32, zero_add]
  exact Finset.sum_congr rfl fun e _ => congrArg _ (funext fun ax => Fin.ext (by match ax with | ⟨0, _⟩ => rfl | ⟨1, _⟩ => rfl | ⟨2, _⟩ => rfl))

/-- THE REFERENCE'S RESULT at (b, s, e): the routing weight of slot e of token (b, s), the similarities scaled by the
    quotient by the square root of 64. -/
theorem result_at (e : Fin 16) :
    val_main_v29 (F := Ideal) x0 x1 x2 x3 x4 (ix3 b s e) = route scaleDiv (fun e' d => x1 (ix4 b s e' d)) (fun j' d => x2 (ix4 b s j' d)) (fun j' => x0 (ix4 b s j' (0 : Fin 1))) (fun d a => x3 (ix2 d a)) (fun d a => x4 (ix2 d a)) e := by
  rw [val_main_v29_apply, val_main_v28_apply, val_main_v27_apply]
  have hi : idx_main_v27 (idx_main_v28 (ix3 b s e)) = ix2 b s := funext fun ax => Fin.ext (by match ax with | ⟨0, _⟩ => rfl | ⟨1, _⟩ => rfl)
  rw [hi, tokensum_at, tokenexp_at, tokenmax_at]
  unfold route softmax
  show Ideal.div _ _ = Ideal.div _ _
  simp only [tokenexp_at, tokenmax_at, gated_at]

/-- THE REFERENCE'S RESULT as a whole array. -/
theorem result_eq : val_main_v29 (F := Ideal) x0 x1 x2 x3 x4 = routed scaleDiv x0 x1 x2 x3 x4 := by
  funext i
  obtain ⟨b, s, e, rfl⟩ : ∃ (b : Fin 4) (s : Fin 2048) (e : Fin 16), i = ix3 b s e := ⟨i 0, i 1, i 2, eq_ix3 i⟩
  exact result_at x0 x1 x2 x3 x4 b s e

end Cert.Router.Reference

end
-- ==== Proof.lean ====
/-
  A mixture-of-experts attention router, as one tiled kernel, against its whole-array reference.

  Every token carries sixteen expert slots, each with a query row and a key row of length 256 and a gate value.  Both
  programs project the rows to 64 coordinates by two weight matrices, take for every token the 16 x 16 inner products
  of the projected query slots with the projected key slots, scale them by 1 / sqrt 64, turn every row of the scaled
  products into weights by a softmax, average the token's gate values with these weights and apply a softmax over the
  slots.  The kernel works on 32 tiles of 256 tokens, with the arrays viewed as matrices of rows before and after, and
  spells the scale as the product with 1/8; the reference works on the whole [4, 2048, 16, ·] arrays and spells it as
  the quotient by the square root of 64.

  On the extended reals a change of float format is the identity, a matrix product into zero and a contraction are the
  plain sums of products, a maximum over an axis is the supremum and a sum over an axis the plain sum, and the layout
  operations only move coordinates.  So each program's result is, at (b, s, e), ONE function of the rows of token (b, s)
  (Proof/RouterSpec.lean, Proof/RoutedArray.lean), up to the spelling of the scale; and the two spellings are one
  function, because sqrt 64 = 8 and a quotient by a nonzero real is the product with its reciprocal at the infinities
  too.  No finiteness of the inputs is used.

  The kernel's side: the body of one grid point read at an index (Proof/BodySimilarity.lean, Proof/BodyRouting.lean,
  Proof/BodyValue.lean), the blocks assembled into the region's output array (Proof/KernelBlocks.lean), and the views
  before and after the region (Proof/KernelRun.lean).  The reference's side: its stages read one at a time
  (Proof/ReferenceValue.lean).  The idealization rewrote nothing, so the kernel's idealized program is its own text.
-/
import proofs.«123269_j82197084111013_2_alg».proof.Defs
import proofs.«123269_j82197084111013_2_alg».proof.Proof.Gen.Kernel
import proofs.«123269_j82197084111013_2_alg».proof.Proof.Gen.Kernel.Skeleton
import proofs.«123269_j82197084111013_2_alg».proof.Proof.Gen.Kernel.Launch
import proofs.«123269_j82197084111013_2_alg».proof.Proof.Gen.Kernel.Points
import proofs.«123269_j82197084111013_2_alg».proof.Proof.Gen.Kernel.Frame
import proofs.«123269_j82197084111013_2_alg».proof.Proof.Gen.KernelIdeal
import proofs.«123269_j82197084111013_2_alg».proof.Proof.Gen.KernelIdeal.Skeleton
import proofs.«123269_j82197084111013_2_alg».proof.Proof.Gen.KernelIdeal.Launch
import proofs.«123269_j82197084111013_2_alg».proof.Proof.Gen.KernelIdeal.Points
import proofs.«123269_j82197084111013_2_alg».proof.Proof.Gen.KernelIdeal.Frame
import proofs.«123269_j82197084111013_2_alg».proof.Proof.Gen.ReferenceIdeal
import proofs.«123269_j82197084111013_2_alg».proof.Proof.Gen.ReferenceIdeal.Run
import proofs.«123269_j82197084111013_2_alg».proof.Proof.Gen.ReferenceIdeal.Read
import proofs.«123269_j82197084111013_2_alg».proof.Proof.Gen.Pre_finite_inputs
import proofs.«123269_j82197084111013_2_alg».proof.Proof.KernelRun
import proofs.«123269_j82197084111013_2_alg».proof.Proof.ReferenceValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its idealized program. -/
theorem frame_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the routing weights of every token: the
    kernel's with the scale spelt as a product, the reference's as a quotient, and the two are one function. -/
theorem algebraic : Cert.algebraic_KernelIdeal_ReferenceIdeal := by
  intro m ρ m' ρ' _ hagree
  refine ⟨_, Cert.Router.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Router.Reference.result_eq, ← Cert.Router.scaleMul_eq_scaleDiv,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
